-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S768x384 : Shape := ⟨2, ![768, 384]⟩
abbrev S768x768x128 : Shape := ⟨3, ![768, 768, 128]⟩
abbrev S128x768 : Shape := ⟨2, ![128, 768]⟩
abbrev S128 : Shape := ⟨1, ![128]⟩
abbrev S_ : Shape := ⟨0, ![]⟩

class Facts : Prop where
  bcast_S_S768x384 : S_.BroadcastsInDim S768x384 (![] : Fin 0 → Fin S768x384.rank)
  reducesTo_S768x384_S_d0_1 : S768x384.ReducesTo [0, 1] S_
  h_S_ : 0 < S_.numel
  bcast_S_S768x768x128 : S_.BroadcastsInDim S768x768x128 (![] : Fin 0 → Fin S768x768x128.rank)
  reducesTo_S768x768x128_S_d0_1_2 : S768x768x128.ReducesTo [0, 1, 2] S_
  bcast_S_S128x768 : S_.BroadcastsInDim S128x768 (![] : Fin 0 → Fin S128x768.rank)
  reducesTo_S128x768_S_d0_1 : S128x768.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S768x384 .f32) (main_arg1 : FVec F S768x768x128 .f32) (main_arg2 : FVec F S128x768 .f32) (main_arg3 : FVec F S128 .f32) : IVec S_ 1 :=
  let main_v0 : FVec F S768x384 .f32 := Host.absf main_arg0
  let main_cst : FVec F S_ .f32 := constant S_ .f32 0x7F800000#32
  let main_v1 : FVec F S768x384 .f32 := broadcastInDim S768x384 ![] bcast_S_S768x384 main_cst
  let main_v2 : IVec S768x384 1 := cmpf .olt main_v0 main_v1
  let main_c : IVec S_ 1 := constantI S_ 1 1#1
  let main_v3 : IVec S_ 1 := (fun x v => Host.reduce IntOp.andi x v reducesTo_S768x384_S_d0_1 h_S_) main_v2 main_c
  let main_v4 : FVec F S768x768x128 .f32 := Host.absf main_arg1
  let main_cst_0 : FVec F S_ .f32 := constant S_ .f32 0x7F800000#32
  let main_v5 : FVec F S768x768x128 .f32 := broadcastInDim S768x768x128 ![] bcast_S_S768x768x128 main_cst_0
  let main_v6 : IVec S768x768x128 1 := cmpf .olt main_v4 main_v5
  let main_c_1 : IVec S_ 1 := constantI S_ 1 1#1
  let main_v7 : IVec S_ 1 := (fun x v => Host.reduce IntOp.andi x v reducesTo_S768x768x128_S_d0_1_2 h_S_) main_v6 main_c_1
  let main_v8 : IVec S_ 1 := andi main_v3 main_v7
  let main_v9 : FVec F S128x768 .f32 := Host.absf main_arg2
  let main_cst_2 : FVec F S_ .f32 := constant S_ .f32 0x7F800000#32
  let main_v10 : FVec F S128x768 .f32 := broadcastInDim S128x768 ![] bcast_S_S128x768 main_cst_2
  let main_v11 : IVec S128x768 1 := cmpf .olt main_v9 main_v10
  let main_c_3 : IVec S_ 1 := constantI S_ 1 1#1
  let main_v12 : IVec S_ 1 := (fun x v => Host.reduce IntOp.andi x v reducesTo_S128x768_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S768x384 : Shape := ⟨2, ![768, 384]⟩
abbrev S768x768x128 : Shape := ⟨3, ![768, 768, 128]⟩
abbrev S128x768 : Shape := ⟨2, ![128, 768]⟩
abbrev S128 : Shape := ⟨1, ![128]⟩
abbrev S128x384 : Shape := ⟨2, ![128, 384]⟩
abbrev S384x128 : Shape := ⟨2, ![384, 128]⟩
abbrev S768x128 : Shape := ⟨2, ![768, 128]⟩
abbrev S1x128 : Shape := ⟨2, ![1, 128]⟩
abbrev S192x128x128 : Shape := ⟨3, ![192, 128, 128]⟩
abbrev S192x128 : Shape := ⟨2, ![192, 128]⟩
abbrev S128x128 : Shape := ⟨2, ![128, 128]⟩
abbrev S192x1x128 : Shape := ⟨3, ![192, 1, 128]⟩
abbrev S1x128x128 : Shape := ⟨3, ![1, 128, 128]⟩

abbrev nBuf : Space → Nat
  | .hbm => 14
  | .vmem => 6
  | .smem => 0
  | _ => 0

abbrev bufTy : (tb : Table) → Fin (tcTables nBuf tb) → BufTy
  | .hbm, ⟨0, _⟩ => ⟨S768x384, .f32⟩
  | .hbm, ⟨1, _⟩ => ⟨S768x768x128, .f32⟩
  | .hbm, ⟨2, _⟩ => ⟨S128x768, .f32⟩
  | .hbm, ⟨3, _⟩ => ⟨S128, .f32⟩
  | .hbm, ⟨4, _⟩ => ⟨S128x384, .f32⟩
  | .hbm, ⟨5, _⟩ => ⟨S128x384, .f32⟩
  | .hbm, ⟨6, _⟩ => ⟨S384x128, .f32⟩
  | .hbm, ⟨7, _⟩ => ⟨S768x128, .f32⟩
  | .hbm, ⟨8, _⟩ => ⟨S1x128, .f32⟩
  | .hbm, ⟨9, _⟩ => ⟨S768x128, .f32⟩
  | .hbm, ⟨10, _⟩ => ⟨S768x128, .f32⟩
  | .hbm, ⟨11, _⟩ => ⟨S384x128, .f32⟩
  | .hbm, ⟨12, _⟩ => ⟨S768x128, .f32⟩
  | .hbm, ⟨13, _⟩ => ⟨S768x768x128, .f32⟩
  | .local _ .vmem, ⟨0, _⟩ => ⟨S768x128, .f32⟩
  | .local _ .vmem, ⟨1, _⟩ => ⟨S768x128, .f32⟩
  | .local _ .vmem, ⟨2, _⟩ => ⟨S192x128x128, .f32⟩
  | .local _ .vmem, ⟨3, _⟩ => ⟨S192x128x128, .f32⟩
  | .local _ .vmem, ⟨4, _⟩ => ⟨S192x128x128, .f32⟩
  | .local _ .vmem, ⟨5, _⟩ => ⟨S192x128x128, .f32⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 6], ![false, false]⟩

def k0_mult1 (i : grid0.Coords) : BitVec 32 :=
  let arg0 : BitVec 32 := BitVec.ofNat 32 (i 0).val
  let c192_i32 : BitVec 32 := 192#32
  let v0 : BitVec 32 := Scalar.muli arg0 c192_i32
  v0
def k0_mult2 (i : grid0.Coords) : BitVec 32 :=
  let arg1 : BitVec 32 := BitVec.ofNat 32 (i 1).val
  let c128_i32 : BitVec 32 := 128#32
  let v2 : BitVec 32 := Scalar.muli arg1 c128_i32
  v2
def k0_off1 (i : grid0.Coords) : Fin 2 → Nat :=
  let arg0 : BitVec 32 := BitVec.ofNat 32 (i 0).val
  let c192_i32 : BitVec 32 := 192#32
  let v0 : BitVec 32 := Scalar.muli arg0 c192_i32
  let v1 : BitVec 32 := v0
  let v4 : Index := Scalar.indexCast v1
  let c0 : Index := 0#32
  ![v4.toNat, 0]
def k0_off2 (i : grid0.Coords) : Fin 2 → Nat :=
  let arg1 : BitVec 32 := BitVec.ofNat 32 (i 1).val
  let c128_i32 : BitVec 32 := 128#32
  let v2 : BitVec 32 := Scalar.muli arg1 c128_i32
  let v3 : BitVec 32 := v2
  let v7 : Index := Scalar.indexCast v3
  let c0_0 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S768x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S192x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S192x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S128x768_S128x384_0_0 : S128x768.Slices ![0, 0] S128x384
  slices_S128x768_S128x384_0_384 : S128x768.Slices ![0, 384] S128x384
  transposes_S128x384_S384x128_1_0 : S128x384.Transposes [1, 0] S384x128
  bcast_S128_S1x128_1 : S128.BroadcastsInDim S1x128 (![1] : Fin 1 → Fin S1x128.rank)
  bcast_S1x128_S768x128_0_1 : S1x128.BroadcastsInDim S768x128 (![0, 1] : Fin 2 → Fin S768x128.rank)
  h_S192x128 : 0 < S192x128.numel
  shapeCasts_S192x128_S192x128 : S192x128.ShapeCasts S192x128
  h_S128x128 : 0 < S128x128.numel
  shapeCasts_S128x128_S128x128 : S128x128.ShapeCasts S128x128
  inb_S192x128x128_S192x128x128_0_0_0 : ∀ a, (![0, 0, 0] : Fin 3 → Nat) a + S192x128x128.size a ≤ S192x128x128.size a
  h_S192x128x128 : 0 < S192x128x128.numel
  shapeCasts_S192x128_S192x1x128 : S192x128.ShapeCasts S192x1x128
  broadcasts_S192x1x128_S192x128x128 : S192x1x128.Broadcasts S192x128x128
  shapeCasts_S128x128_S1x128x128 : S128x128.ShapeCasts S1x128x128
  broadcasts_S1x128x128_S192x128x128 : S1x128x128.Broadcasts S192x128x128
  dot_S768x384_S384x128_S768x128_1_0_0_1_n_n_wf : DotDims.WF S768x384 S384x128 S768x128 [1] [0] [0] [1] [] []
  hrank0 : 0 < grid0.rank
  k0_mult1_dvd : ∀ i : grid0.Coords, 192 ∣ (k0_mult1 i).toNat
  k0_mult2_dvd : ∀ i : grid0.Coords, 128 ∣ (k0_mult2 i).toNat
  k0_off1_inb : ∀ i : grid0.Coords, ∀ a, (k0_off1 i) a + S192x128.size a ≤ S768x128.size a
  k0_off2_inb : ∀ i : grid0.Coords, ∀ a, (k0_off2 i) a + S128x128.size a ≤ S768x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S768x128.size a ≤ S768x128.size a
  hwx0_0 : ∀ i : grid0.Coords, EltTy.bits .f32 = 32 ∨ (Rect.block (s := S768x128) S768x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S192x128x128.size a ≤ S768x768x128.size a
  hwx0_2 : ∀ i : grid0.Coords, EltTy.bits .f32 = 32 ∨ (Rect.block (s := S768x768x128) S192x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S192x128x128.size a ≤ S768x768x128.size a
  hwx0_3 : ∀ i : grid0.Coords, EltTy.bits .f32 = 32 ∨ (Rect.block (s := S768x768x128) S192x128x128.size (cc0_transform_3 i) (hinb0_3 i)).WholeWords (EltTy.packing .f32)

variable [Facts₀]

def dot_S768x384_S384x128_S768x128_1_0_0_1_n_n : DotDims S768x384 S384x128 S768x128 where
  lhsContracting := [1]
  rhsContracting := [0]
  lhsNonContracting := [0]
  rhsNonContracting := [1]
  lhsBatch := []
  rhsBatch := []
  wf := dot_S768x384_S384x128_S768x128_1_0_0_1_n_n_wf

abbrev win0_0 : Pipeline.Window sig grid0 :=
  Pipeline.Window.ofSpec (Memref.whole main_v6) S768x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S192x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S192x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 2 3

variable [Facts]
-- ==== ReferenceIdeal.lean ====
abbrev S768x384 : Shape := ⟨2, ![768, 384]⟩
abbrev S768x768x128 : Shape := ⟨3, ![768, 768, 128]⟩
abbrev S128x768 : Shape := ⟨2, ![128, 768]⟩
abbrev S128 : Shape := ⟨1, ![128]⟩
abbrev S128x384 : Shape := ⟨2, ![128, 384]⟩
abbrev S768x128 : Shape := ⟨2, ![768, 128]⟩
abbrev S768x1x128 : Shape := ⟨3, ![768, 1, 128]⟩
abbrev S1x768x128 : Shape := ⟨3, ![1, 768, 128]⟩
abbrev S1x1x128 : Shape := ⟨3, ![1, 1, 128]⟩

abbrev nBuf : Space → Nat
  | .hbm => 17
  | .vmem => 0
  | .smem => 0
  | _ => 0

abbrev bufTy : (tb : Table) → Fin (tcTables nBuf tb) → BufTy
  | .hbm, ⟨0, _⟩ => ⟨S768x384, .f32⟩
  | .hbm, ⟨1, _⟩ => ⟨S768x768x128, .f32⟩
  | .hbm, ⟨2, _⟩ => ⟨S128x768, .f32⟩
  | .hbm, ⟨3, _⟩ => ⟨S128, .f32⟩
  | .hbm, ⟨4, _⟩ => ⟨S128x384, .f32⟩
  | .hbm, ⟨5, _⟩ => ⟨S128x384, .f32⟩
  | .hbm, ⟨6, _⟩ => ⟨S768x128, .f32⟩
  | .hbm, ⟨7, _⟩ => ⟨S768x128, .f32⟩
  | .hbm, ⟨8, _⟩ => ⟨S768x1x128, .f32⟩
  | .hbm, ⟨9, _⟩ => ⟨S768x768x128, .f32⟩
  | .hbm, ⟨10, _⟩ => ⟨S768x768x128, .f32⟩
  | .hbm, ⟨11, _⟩ => ⟨S1x768x128, .f32⟩
  | .hbm, ⟨12, _⟩ => ⟨S768x768x128, .f32⟩
  | .hbm, ⟨13, _⟩ => ⟨S768x768x128, .f32⟩
  | .hbm, ⟨14, _⟩ => ⟨S1x1x128, .f32⟩
  | .hbm, ⟨15, _⟩ => ⟨S768x768x128, .f32⟩
  | .hbm, ⟨16, _⟩ => ⟨S768x768x128, .f32⟩
  | _, _ => ⟨S768x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  slices_S128x768_S128x384_0_0 : S128x768.Slices ![0, 0] S128x384
  slices_S128x768_S128x384_0_384 : S128x768.Slices ![0, 384] S128x384
  bcast_S768x128_S768x1x128_0_2 : S768x128.BroadcastsInDim S768x1x128 (![0, 2] : Fin 2 → Fin S768x1x128.rank)
  bcast_S768x1x128_S768x768x128_0_1_2 : S768x1x128.BroadcastsInDim S768x768x128 (![0, 1, 2] : Fin 3 → Fin S768x768x128.rank)
  bcast_S768x128_S1x768x128_1_2 : S768x128.BroadcastsInDim S1x768x128 (![1, 2] : Fin 2 → Fin S1x768x128.rank)
  bcast_S1x768x128_S768x768x128_0_1_2 : S1x768x128.BroadcastsInDim S768x768x128 (![0, 1, 2] : Fin 3 → Fin S768x768x128.rank)
  bcast_S128_S1x1x128_2 : S128.BroadcastsInDim S1x1x128 (![2] : Fin 1 → Fin S1x1x128.rank)
  bcast_S1x1x128_S768x768x128_0_1_2 : S1x1x128.BroadcastsInDim S768x768x128 (![0, 1, 2] : Fin 3 → Fin S768x768x128.rank)
  dot_S768x384_S128x384_S768x128_1_1_0_0_n_n_wf : DotDims.WF S768x384 S128x384 S768x128 [1] [1] [0] [0] [] []

variable [Facts₀]

def dot_S768x384_S128x384_S768x128_1_1_0_0_n_n : DotDims S768x384 S128x384 S768x128 where
  lhsContracting := [1]
  rhsContracting := [1]
  lhsNonContracting := [0]
  rhsNonContracting := [0]
  lhsBatch := []
  rhsBatch := []
  wf := dot_S768x384_S128x384_S768x128_1_1_0_0_n_n_wf

class Facts : Prop extends Facts₀ where

variable [Facts]
-- ==== Proof.LibLayout.lean ====
/-
  Three layout operations read at an index, at rank 3, with every index written by its coordinates. A value that
  depends on the first and last coordinates only is laid out along a middle axis of extent one and then repeated along
  it; a value that depends on the last two coordinates only is given a leading axis of extent one and then repeated
  along that. Reading the result at `(i, j, k)` reads the operand at `(i, k)`, respectively `(j, k)`: a cast keeps
  the row-major position, and a broadcast reads coordinate zero on an axis of extent one.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, c]` array cast to `[a, 1, c]` reads, at `(i, u, k)`, the operand at `(i, k)`: both have row-major
    position `i · c + k`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

end Idealize.ShloMosaic.ValueIdx
-- ==== Proof.KernelPayload.lean ====
/-
  What the kernel's body stores, read at one entry of its block.

  At a grid point the body has three values in hand: `rows`, 192 rows of the row term (128 channels each); `cols`, 128
  rows of the column term; and `zblk`, the point's 192 × 128 block of the pair tensor. It lays `rows` out along a middle
  axis of extent one and repeats it over the block's 128 columns, gives `cols` a leading axis of extent one and repeats
  it over the block's 192 rows, and adds: first the row term to the pair tensor, then the column term to that sum. So
  at row `a`, column `bb` and channel `p` of the block the stored value is

    (zblk[a, bb, p] + rows[a, p]) + cols[bb, p].
-/
import proofs.«126398_j17609365914012_2_alg».proof.Proof.Gen.KernelIdeal.Skeleton
import proofs.«126398_j17609365914012_2_alg».proof.Proof.LibLayout

noncomputable section

namespace Cert.KernelIdeal.Bridge

open Cert.KernelIdeal Cert.KernelIdeal.Gen Idealize.ShloMosaic Idealize.ShloMosaic.ValueIdx

/-- The body's stored value at entry `(a, bb, p)` of the block: the block of the pair tensor there, plus row `a` of the
    row term, plus row `bb` of the column term, channel `p` of each. -/
theorem pay_apply (rows : FVec Ideal S192x128 .f32) (cols : FVec Ideal S128x128 .f32) (zblk : FVec Ideal S192x128x128 .f32)
    (a : Fin 192) (bb : Fin 128) (p : Fin 128) :
    k0_pay1 (F := Ideal) rows cols zblk (ix3 a bb p) = (zblk (ix3 a bb p) + rows (ix2 a p)) + cols (ix2 bb p) := by
  unfold k0_pay1
  refine congrArg₂ (· + ·) (congrArg₂ (· + ·) rfl ?_) ?_
  · refine (broadcastTo_a1c_abc_apply _ _ a bb p).trans ?_
    refine (shapeCast_ac_a1c_apply _ _ a (0 : Fin 1) p).trans ?_
    rw [shapeCast_self]
  · refine (broadcastTo_1bc_abc_apply _ _ a bb p).trans ?_
    refine (shapeCast_ab_1ab_apply _ _ (0 : Fin 1) bb p).trans ?_
    rw [shapeCast_self]

end Cert.KernelIdeal.Bridge

end
-- ==== Proof.KernelBlocks.lean ====
/-
  From the kernel's blocks to its whole result array.

  The grid has 4 × 6 points. At point `(i₀, i₁)` the kernel holds the whole row-term array and the whole column-term
  array (768 × 128 each, the same block at every point) and block `(i₀, i₁)` of the pair tensor: rows
  [192·i₀, 192·i₀ + 192) of its first position, rows [128·i₁, 128·i₁ + 128) of its second, all 128 channels. The body
  loads rows [192·i₀, 192·i₀ + 192) of the row term and rows [128·i₁, 128·i₁ + 128) of the column term — the same
  offsets, which it computes from the point's coordinates — and stores, at entry `(a, bb, p)` of the output block,

    (z[192·i₀ + a, 128·i₁ + bb, p] + R[192·i₀ + a, p]) + C[128·i₁ + bb, p].

  That is entry `(192·i₀ + a, 128·i₁ + bb, p)` of ONE function of the three arrays, `spread R C z`, whose value at
  `(x, y, p)` is `(z[x, y, p] + R[x, p]) + C[y, p]`: every point writes back the restriction of `spread` to its block.
  The 24 blocks tile the 768 × 768 × 128 array (the block holding `(x, y, p)` is `(x / 192, y / 128)`), so after the
  run the result array is `spread R C z`.
-/
import proofs.«126398_j17609365914012_2_alg».proof.Proof.Gen.KernelIdeal.Value
import proofs.«126398_j17609365914012_2_alg».proof.Proof.KernelPayload

set_option maxRecDepth 16384

noncomputable section

namespace Cert.KernelIdeal.Bridge

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What the body leaves in the output's staging buffer -/

theorem zero3 : (![0, 0, 0] : Fin 3 → Nat) = fun _ => 0 := funext fun a => by fin_cases a <;> rfl

/-- The body's one store covers the output block, so the block ends holding the store's value: the payload of the rows
    it loaded from the row term and the column term at the point's offsets and of the pair tensor's block. -/
theorem stored_eq (c : Dev nD) (i : grid0.Coords) (arg2 : Memref sig .tc .vmem S768x128 .f32) (harg2 : arg2.IsWhole) (arg3 : Memref sig .tc .vmem S768x128 .f32) (harg3 : arg3.IsWhole) (arg4 : Memref sig .tc .vmem S192x128x128 .f32) (harg4 : arg4.IsWhole) (arg5 : Memref sig .tc .vmem S192x128x128 .f32) (harg5 : arg5.IsWhole)
    (x0 : Vec Ideal S768x128 .f32) (x1 : Vec Ideal S768x128 .f32) (x2 : Vec Ideal S192x128x128 .f32) :
    out0_A_3 c i arg2 harg2 arg3 harg3 arg4 harg4 arg5 harg5 x0 x1 x2
      = k0_pay1 (View.ld x0 (Rect.unit (s := S768x128) (k0_off1 i) S192x128.size (k0_off1_inb i)))
          (View.ld x1 (Rect.unit (s := S768x128) (k0_off2 i) S128x128.size (k0_off2_inb i))) x2 := by
  unfold out0_A_3
  rw [View.read_writes_eq_canon _ _ _ (cover0_A_3 c i arg2 harg2 arg3 harg3 arg4 harg4 arg5 harg5 x0 x1 x2)]
  unfold kernelRun0_A
  dsimp only
  rw [View.canon_unit_zero zero3]
  simp only [View.readAt_eq_ld, harg2.read_unread, harg3.read_unread, harg4.read_unread, View.ld_unit_zero (S := S192x128x128) zero3]

/-- The 192 rows the body loads from the row term start at row `192·i₀`: row `a` of the load is row `192·i₀ + a`. -/
theorem rowsLoad_apply (X : Vec Ideal S768x128 .f32) (i : grid0.Coords) (a : Fin 192) (p : Fin 128) (r : Fin 768)
    (hr : r.val = 192 * (i 0).val + a.val) :
    View.ld (Val := Elt Ideal) X (Rect.unit (s := S768x128) (k0_off1 i) S192x128.size (k0_off1_inb i)) (ix2 a p) = X (ix2 r p) := by
  show X _ = X _
  refine congrArg X (funext fun ax => Fin.ext ?_)
  have e := k0_off1_eq i
  match ax with
  | ⟨0, _⟩ =>
    show (k0_off1 i) 0 + 1 * a.val = r.val
    rw [e]; show 192 * (i 0).val + 1 * a.val = r.val; omega
  | ⟨1, _⟩ =>
    show (k0_off1 i) 1 + 1 * p.val = p.val
    rw [e]; show 0 + 1 * p.val = p.val; omega

/-- The 128 rows the body loads from the column term start at row `128·i₁`: row `bb` of the load is row `128·i₁ + bb`. -/
theorem colsLoad_apply (X : Vec Ideal S768x128 .f32) (i : grid0.Coords) (bb : Fin 128) (p : Fin 128) (r : Fin 768)
    (hr : r.val = 128 * (i 1).val + bb.val) :
    View.ld (Val := Elt Ideal) X (Rect.unit (s := S768x128) (k0_off2 i) S128x128.size (k0_off2_inb i)) (ix2 bb p) = X (ix2 r p) := by
  show X _ = X _
  refine congrArg X (funext fun ax => Fin.ext ?_)
  have e := k0_off2_eq i
  match ax with
  | ⟨0, _⟩ =>
    show (k0_off2 i) 0 + 1 * bb.val = r.val
    rw [e]; show 128 * (i 1).val + 1 * bb.val = r.val; omega
  | ⟨1, _⟩ =>
    show (k0_off2 i) 1 + 1 * p.val = p.val
    rw [e]; show 0 + 1 * p.val = p.val; omega

/-! ## The whole-array function every point writes a block of -/

/-- The pair tensor plus the row term at the pair's first position plus the column term at its second. -/
def spread (R C : FVec Ideal S768x128 .f32) (z : FVec Ideal S768x768x128 .f32) : FVec Ideal S768x768x128 .f32 :=
  fun j => (z j + R (ix2 (j 0) (j 2))) + C (ix2 (j 1) (j 2))

theorem spread_apply (R C : FVec Ideal S768x128 .f32) (z : FVec Ideal S768x768x128 .f32) (x y : Fin 768) (p : Fin 128) :
    spread R C z (ix3 x y p) = (z (ix3 x y p) + R (ix2 x p)) + C (ix2 y p) := rfl

/-- The printed index maps, decided over the 24 points: the two prepared arrays are staged whole (block `(0, 0)`), and
    the pair tensor's block and the output's block at a point are both the point's coordinates. -/
theorem block_index : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = (grid0.coords t 0).val ∧ win0_2.index t (1 : Fin 3) = (grid0.coords t 1).val
    ∧ win0_2.index t (2 : Fin 3) = 0
    ∧ win0_3.index t (0 : Fin 3) = (grid0.coords t 0).val ∧ win0_3.index t (1 : Fin 3) = (grid0.coords t 1).val
    ∧ win0_3.index t (2 : Fin 3) = 0 :=
  (by decide +kernel : ∀ t : Fin grid0.N, _)

/-- Every block of the 4 × 6 tiling is some point's. -/
theorem every_block : ∀ (q0 : Fin 4) (q1 : Fin 6), ∃ t : Fin cfg0.N, win0_3.index t = ![q0.val, q1.val, 0] :=
  (by decide +kernel : ∀ (q0 : Fin 4) (q1 : Fin 6), ∃ t : Fin grid0.N, win0_3.index t = ![q0.val, q1.val, 0])

/-! ## What a point writes back -/

/-- What point `t` writes back is block `t` of `spread` of the three arrays as the kernel finds them at launch. -/
theorem flushed_eq (c : Dev nD) (t : Fin cfg0.N) :
    (dats m 0 c).flushed 3 t
      = ((cfg0.win 3).blk t).view.read (Elt Ideal) (spread (V m c main_v6) (V m c main_v8) (V m c main_arg1)) := by
  rw [Value.flushed3_A, stored_eq]
  obtain ⟨e00, e01, e10, e11, e20, e21, e22, e30, e31, e32⟩ := block_index t
  have hi0 : (grid0.coords t 0).val < 4 := (grid0.coords t 0).isLt
  have hi1 : (grid0.coords t 1).val < 6 := (grid0.coords t 1).isLt
  funext y
  obtain ⟨a, bb, p, rfl⟩ : ∃ (a : Fin 192) (bb : Fin 128) (p : Fin 128), y = ix3 a bb p := ⟨y 0, y 1, y 2, eq_ix3 y⟩
  have ha : a.val < 192 := a.isLt
  have hb : bb.val < 128 := bb.isLt
  have hx : 192 * (grid0.coords t 0).val + a.val < 768 := by omega
  have hy : 128 * (grid0.coords t 1).val + bb.val < 768 := by omega
  -- entry (a, bb, p) of the output block is entry (192·i₀ + a, 128·i₁ + bb, p) of the array
  have hemb : ((cfg0.win 3).blk t).view.emb (ix3 a bb p)
      = ix3 (⟨192 * (grid0.coords t 0).val + a.val, hx⟩ : Fin 768) (⟨128 * (grid0.coords t 1).val + bb.val, hy⟩ : Fin 768) p := by
    funext ax; apply Fin.ext
    match ax with
    | ⟨0, _⟩ => show win0_3.index t (0 : Fin 3) * 192 + 1 * a.val = 192 * (grid0.coords t 0).val + a.val; omega
    | ⟨1, _⟩ => show win0_3.index t (1 : Fin 3) * 128 + 1 * bb.val = 128 * (grid0.coords t 1).val + bb.val; omega
    | ⟨2, _⟩ => show win0_3.index t (2 : Fin 3) * 128 + 1 * p.val = p.val; omega
  show k0_pay1 _ _ _ (ix3 a bb p) = spread _ _ _ (((cfg0.win 3).blk t).view.emb (ix3 a bb p))
  rw [hemb, spread_apply]
  refine (pay_apply _ _ _ a bb p).trans ?_
  refine congrArg₂ (· + ·) (congrArg₂ (· + ·) ?_ ?_) ?_
  · -- the pair tensor's block at the point sits where the output's block does
    show V m c main_arg1 (((cfg0.win 2).blk t).view.emb (ix3 a bb p)) = V m c main_arg1 _
    refine congrArg (V m c main_arg1) (funext fun ax => Fin.ext ?_)
    match ax with
    | ⟨0, _⟩ => show win0_2.index t (0 : Fin 3) * 192 + 1 * a.val = 192 * (grid0.coords t 0).val + a.val; omega
    | ⟨1, _⟩ => show win0_2.index t (1 : Fin 3) * 128 + 1 * bb.val = 128 * (grid0.coords t 1).val + bb.val; omega
    | ⟨2, _⟩ => show win0_2.index t (2 : Fin 3) * 128 + 1 * p.val = p.val; omega
  · -- the loaded rows of the row term, which is staged whole
    refine (rowsLoad_apply _ (grid0.coords t) a p ⟨192 * (grid0.coords t 0).val + a.val, hx⟩ rfl).trans ?_
    show V m c main_v6 (((cfg0.win 0).blk t).view.emb (ix2 (⟨192 * (grid0.coords t 0).val + a.val, hx⟩ : Fin 768) p)) = V m c main_v6 _
    refine congrArg (V m c main_v6) (funext fun ax => Fin.ext ?_)
    match ax with
    | ⟨0, _⟩ => show win0_0.index t (0 : Fin 2) * 768 + 1 * (192 * (grid0.coords t 0).val + a.val) = 192 * (grid0.coords t 0).val + a.val; omega
    | ⟨1, _⟩ => show win0_0.index t (1 : Fin 2) * 128 + 1 * p.val = p.val; omega
  · -- the loaded rows of the column term, staged whole too
    refine (colsLoad_apply _ (grid0.coords t) bb p ⟨128 * (grid0.coords t 1).val + bb.val, hy⟩ rfl).trans ?_
    show V m c main_v8 (((cfg0.win 1).blk t).view.emb (ix2 (⟨128 * (grid0.coords t 1).val + bb.val, hy⟩ : Fin 768) p)) = V m c main_v8 _
    refine congrArg (V m c main_v8) (funext fun ax => Fin.ext ?_)
    match ax with
    | ⟨0, _⟩ => show win0_1.index t (0 : Fin 2) * 768 + 1 * (128 * (grid0.coords t 1).val + bb.val) = 128 * (grid0.coords t 1).val + bb.val; omega
    | ⟨1, _⟩ => show win0_1.index t (1 : Fin 2) * 128 + 1 * p.val = p.val; omega

/-! ## The blocks tile the array -/

/-- An index of the array is in point `t`'s block iff each coordinate is in the block's range on its axis. -/
theorem mem_block (t : Fin cfg0.N) (i : S768x768x128.Idx) :
    i ∈ ((cfg0.win 3).blk t).view.set ↔ ∀ a : Fin 3, win0_3.index t a * S192x128x128.size a ≤ (i a).val
      ∧ (i a).val < win0_3.index t a * S192x128x128.size a + S192x128x128.size a := by
  show i ∈ ((View.whole main_v9).slice (win0_3.rect t)).set ↔ _
  rw [View.set_slice_whole, Rect.mem_set_unit]
  exact Iff.rfl

/-- Every index is in the block of the point whose coordinates are the index's quotients by the block extents. -/
theorem covered (i : S768x768x128.Idx) :
    ∃ t : Fin cfg0.N, (cfg0.win 3).flush t = true ∧ i ∈ ((cfg0.win 3).blk t).view.set := by
  have h0 : (i 0).val < 768 := (i 0).isLt
  have h1 : (i 1).val < 768 := (i 1).isLt
  have h2 : (i 2).val < 128 := (i 2).isLt
  obtain ⟨t, ht⟩ := every_block ⟨(i 0).val / 192, by omega⟩ ⟨(i 1).val / 128, by omega⟩
  have q0 : win0_3.index t (0 : Fin 3) = (i 0).val / 192 := congrFun ht 0
  have q1 : win0_3.index t (1 : Fin 3) = (i 1).val / 128 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 192 ≤ (i 0).val ∧ (i 0).val < win0_3.index t (0 : Fin 3) * 192 + 192; omega
  | ⟨1, _⟩ => show win0_3.index t (1 : Fin 3) * 128 ≤ (i 1).val ∧ (i 1).val < win0_3.index t (1 : Fin 3) * 128 + 128; omega
  | ⟨2, _⟩ => show win0_3.index t (2 : Fin 3) * 128 ≤ (i 2).val ∧ (i 2).val < win0_3.index t (2 : Fin 3) * 128 + 128; omega

/-- After the run the result array is `spread` of the three arrays as the kernel finds them at launch. -/
theorem final_spread (c : Dev nD) :
    (dats m 0 c).arrAt 3 cfg0.N = spread (V m c main_v6) (V m c main_v8) (V m c main_arg1) :=
  (dats m 0 c).arrAt_eq_of_cover 3 _ (fun t _ => flushed_eq m c t) covered

end Cert.KernelIdeal.Bridge

end
-- ==== Proof.AddLaw.lean ====
/-
  The one algebraic law that separates the two programs. The kernel adds the bias to the row projection before the
  pair tensor is touched, and then adds the column projection: `(z + (r + b)) + c`. The reference adds the row
  projection, then the column projection, and the bias last: `((z + r) + c) + b`. Addition of extended reals is
  commutative and associative (the conventions at the infinities do not disturb either law), so the two sums agree
  for every extended real, finite or not: no finiteness of the inputs is used.
-/
import Mathlib.Data.EReal.Basic

namespace PairUpdate

/-- Moving the bias from the row term to the end of the sum: `(z + (r + b)) + c = ((z + r) + c) + b`. -/
theorem bias_last (z r b c : EReal) : (z + (r + b)) + c = ((z + r) + c) + b := by
  rw [← add_assoc, add_right_comm]

end PairUpdate
-- ==== Proof.PairSpec.lean ====
/-
  The pair update, stated once, entry by entry.

  The arguments are a single representation `s` (768 rows of 384 features), a pair tensor `z` (768 × 768 positions of
  128 channels), a weight `W` (128 output channels by 768 input features) and a bias `b` (128 channels). The weight's
  first 384 columns act on the representation of the FIRST position of a pair, its last 384 columns on the
  representation of the SECOND position:

    rowProj s W l p = Σ_d s[l, d] · W[p, d]            (d < 384)
    colProj s W l p = Σ_d s[l, d] · W[p, 384 + d]      (d < 384)

  and the result at pair (a, b') and channel p is

    ((z[a, b', p] + rowProj s W a p) + colProj s W b' p) + b[p].

  That is the order in which the reference adds its four terms. The kernel folds the bias into the row projection
  before it touches the pair tensor, `(z + (row + b)) + col`; the two orders agree on every extended real because
  addition there is commutative and associative (`bias_last`), so nothing is asked of the inputs.
-/
import Idealize.ShloMosaic.PureOps.Ideal
import Idealize.ShloMosaic.Lib.ValueIdx
import proofs.«126398_j17609365914012_2_alg».proof.Proof.AddLaw

noncomputable section

namespace PairUpdate

open Idealize.ShloMosaic Idealize.ShloMosaic.ValueIdx
open scoped BigOperators

/-- Column `d` of the weight's first half, in row `p`. -/
abbrev wLo (p : Fin 128) (d : Fin 384) : (⟨2, ![128, 768]⟩ : Shape).Idx :=
  ix2 p ⟨d.val, by have := d.isLt; omega⟩

/-- Column `d` of the weight's second half, in row `p`: column `384 + d` of the whole weight. -/
abbrev wHi (p : Fin 128) (d : Fin 384) : (⟨2, ![128, 768]⟩ : Shape).Idx :=
  ix2 p ⟨384 + d.val, by have := d.isLt; omega⟩

/-- The projection of row `l` of the representation by the weight's first half, channel `p`. -/
def rowProj (s : FVec Ideal ⟨2, ![768, 384]⟩ .f32) (W : FVec Ideal ⟨2, ![128, 768]⟩ .f32) (l : Fin 768) (p : Fin 128) : EReal :=
  ∑ d : Fin 384, s (ix2 l d) * W (wLo p d)

/-- The projection of row `l` of the representation by the weight's second half, channel `p`. -/
def colProj (s : FVec Ideal ⟨2, ![768, 384]⟩ .f32) (W : FVec Ideal ⟨2, ![128, 768]⟩ .f32) (l : Fin 768) (p : Fin 128) : EReal :=
  ∑ d : Fin 384, s (ix2 l d) * W (wHi p d)

/-- The updated pair tensor at pair `(a, b')`, channel `p`, the bias added last. -/
def entry (s : FVec Ideal ⟨2, ![768, 384]⟩ .f32) (z : FVec Ideal ⟨3, ![768, 768, 128]⟩ .f32)
    (W : FVec Ideal ⟨2, ![128, 768]⟩ .f32) (b : FVec Ideal ⟨1, ![128]⟩ .f32) (a b' : Fin 768) (p : Fin 128) : EReal :=
  ((z (ix3 a b' p) + rowProj s W a p) + colProj s W b' p) + b (ix1 p)

/-- The updated pair tensor, as one function of the four argument arrays. -/
def pairUpdate (s : FVec Ideal ⟨2, ![768, 384]⟩ .f32) (z : FVec Ideal ⟨3, ![768, 768, 128]⟩ .f32)
    (W : FVec Ideal ⟨2, ![128, 768]⟩ .f32) (b : FVec Ideal ⟨1, ![128]⟩ .f32) : FVec Ideal ⟨3, ![768, 768, 128]⟩ .f32 :=
  fun j => entry s z W b (j 0) (j 1) (j 2)

theorem pairUpdate_apply (s : FVec Ideal ⟨2, ![768, 384]⟩ .f32) (z : FVec Ideal ⟨3, ![768, 768, 128]⟩ .f32)
    (W : FVec Ideal ⟨2, ![128, 768]⟩ .f32) (b : FVec Ideal ⟨1, ![128]⟩ .f32) (a b' : Fin 768) (p : Fin 128) :
    pairUpdate s z W b (ix3 a b' p) = entry s z W b a b' p := rfl

/-- The kernel's order of the same four terms — the bias joined to the row projection first — gives the same entry. -/
theorem entry_bias_first (s : FVec Ideal ⟨2, ![768, 384]⟩ .f32) (z : FVec Ideal ⟨3, ![768, 768, 128]⟩ .f32)
    (W : FVec Ideal ⟨2, ![128, 768]⟩ .f32) (b : FVec Ideal ⟨1, ![128]⟩ .f32) (a b' : Fin 768) (p : Fin 128) :
    (z (ix3 a b' p) + (rowProj s W a p + b (ix1 p))) + colProj s W b' p = entry s z W b a b' p :=
  bias_last _ _ _ _

end PairUpdate

end
-- ==== Proof.KernelHost.lean ====
/-
  The two terms the kernel's host operations prepare before the kernel is launched, read at one entry.

  The kernel does not hand the representation and the weight to its body. Its host operations first cut the weight
  into its two halves (columns [0, 384) and [384, 768) of every row), transpose each half to 384 × 128, and contract
  the representation (768 × 384) with it over the 384 features: entry `(l, p)` of the product is
  `Σ_d s[l, d] · halfᵀ[d, p] = Σ_d s[l, d] · half[p, d]`. To the first product they add the bias, repeated over the 768
  rows. So

    rowTerm s W b at (l, p) = rowProj s W l p + b[p]        colTerm s W at (l, p) = colProj s W l p

  in the specification's words (PairSpec.lean). The contraction read at an index is the host's `dot_general` with one
  contracted axis on each side — the left operand's second, the right operand's first — re-indexed by that one
  coordinate.
-/
import proofs.«126398_j17609365914012_2_alg».proof.Proof.Gen.KernelIdeal
import proofs.«126398_j17609365914012_2_alg».proof.Proof.PairSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx
open scoped BigOperators

/-! ## The contraction at an index -/

/-- The left operand is read at the result's row, -/
theorem lhs_row (i : S768x128.Idx) (q : dot_S768x384_S384x128_S768x128_1_0_0_1_n_n.contr.Idx) :
    (dot_S768x384_S384x128_S768x128_1_0_0_1_n_n.lhsIdx i q 0).val = (i 0).val := by
  unfold DotDims.lhsIdx
  rw [dif_neg (show ¬(0 : Fin S768x384.rank) ∈ dot_S768x384_S384x128_S768x128_1_0_0_1_n_n.lhsBatch by decide), dif_pos (show (0 : Fin S768x384.rank) ∈ dot_S768x384_S384x128_S768x128_1_0_0_1_n_n.lhsNonContracting by decide)]
  rfl
/-- and at the contraction's coordinate on its second axis; -/
theorem lhs_contr (i : S768x128.Idx) (q : dot_S768x384_S384x128_S768x128_1_0_0_1_n_n.contr.Idx) :
    (dot_S768x384_S384x128_S768x128_1_0_0_1_n_n.lhsIdx i q 1).val = (q ⟨0, by decide⟩).val :=
  dot_S768x384_S384x128_S768x128_1_0_0_1_n_n.lhsIdx_val_of_single rfl i q
/-- the right operand at the contraction's coordinate on its first axis, -/
theorem rhs_contr (i : S768x128.Idx) (q : dot_S768x384_S384x128_S768x128_1_0_0_1_n_n.contr.Idx) :
    (dot_S768x384_S384x128_S768x128_1_0_0_1_n_n.rhsIdx i q 0).val = (q ⟨0, by decide⟩).val :=
  dot_S768x384_S384x128_S768x128_1_0_0_1_n_n.rhsIdx_val_of_single rfl i q
/-- and at the result's column. -/
theorem rhs_col (i : S768x128.Idx) (q : dot_S768x384_S384x128_S768x128_1_0_0_1_n_n.contr.Idx) :
    (dot_S768x384_S384x128_S768x128_1_0_0_1_n_n.rhsIdx i q 1).val = (i 1).val := by
  unfold DotDims.rhsIdx
  rw [dif_neg (show ¬(1 : Fin S384x128.rank) ∈ dot_S768x384_S384x128_S768x128_1_0_0_1_n_n.rhsBatch by decide), dif_pos (show (1 : Fin S384x128.rank) ∈ dot_S768x384_S384x128_S768x128_1_0_0_1_n_n.rhsNonContracting by decide)]
  rfl

/-- The host's product of a 768 × 384 array with a 384 × 128 array, at `(i, p)`: the sum over the 384 shared
    coordinates of the left operand's row `i` times the right operand's column `p`. -/
theorem dot_apply (l : FVec Ideal S768x384 .f32) (r : FVec Ideal S384x128 .f32) (i : Fin 768) (p : Fin 128) :
    Host.dotGeneral (F := Ideal) dot_S768x384_S384x128_S768x128_1_0_0_1_n_n none l r (ix2 i p) = ∑ k : Fin 384, l (ix2 i k) * r (ix2 k p) := by
  simp only [Host.dotGeneral]
  rw [Ideal.dotGeneral_apply, ← Equiv.sum_comp (contrEquiv1 dot_S768x384_S384x128_S768x128_1_0_0_1_n_n 384 rfl rfl).symm]
  refine Finset.sum_congr rfl fun k _ => ?_
  have hk := contrEquiv1_symm_val dot_S768x384_S384x128_S768x128_1_0_0_1_n_n 384 rfl rfl k
  have el : dot_S768x384_S384x128_S768x128_1_0_0_1_n_n.lhsIdx (ix2 i p) ((contrEquiv1 dot_S768x384_S384x128_S768x128_1_0_0_1_n_n 384 rfl rfl).symm k) = ix2 i k := funext fun a => Fin.ext (by
    match a with
    | ⟨0, _⟩ => exact lhs_row _ _
    | ⟨1, _⟩ => exact (lhs_contr _ _).trans hk)
  have er : dot_S768x384_S384x128_S768x128_1_0_0_1_n_n.rhsIdx (ix2 i p) ((contrEquiv1 dot_S768x384_S384x128_S768x128_1_0_0_1_n_n 384 rfl rfl).symm k) = ix2 k p := funext fun a => Fin.ext (by
    match a with
    | ⟨0, _⟩ => exact (rhs_contr _ _).trans hk
    | ⟨1, _⟩ => exact rhs_col _ _)
  rw [el, er]

/-! ## The row term and the column term -/

/-- The row term: the representation contracted with the transposed first half of the weight, plus the bias repeated
    over the rows. -/
def rowTerm (s : FVec Ideal S768x384 .f32) (W : FVec Ideal S128x768 .f32) (b : FVec Ideal S128 .f32) : FVec Ideal S768x128 .f32 :=
  addf (Host.dotGeneral (F := Ideal) dot_S768x384_S384x128_S768x128_1_0_0_1_n_n none s
      (transpose S384x128 [1, 0] (extractStridedSlice S128x384 ![0, 0] W slices_S128x768_S128x384_0_0) transposes_S128x384_S384x128_1_0))
    (broadcastInDim S768x128 ![0, 1] bcast_S1x128_S768x128_0_1 (broadcastInDim S1x128 ![1] bcast_S128_S1x128_1 b))

/-- The column term: the representation contracted with the transposed second half of the weight. -/
def colTerm (s : FVec Ideal S768x384 .f32) (W : FVec Ideal S128x768 .f32) : FVec Ideal S768x128 .f32 :=
  Host.dotGeneral (F := Ideal) dot_S768x384_S384x128_S768x128_1_0_0_1_n_n none s
    (transpose S384x128 [1, 0] (extractStridedSlice S128x384 ![0, 384] W slices_S128x768_S128x384_0_384) transposes_S128x384_S384x128_1_0)

/-- Entry `(d, p)` of the transposed first half of the weight is entry `(p, d)` of the weight. -/
theorem loHalfT_apply (W : FVec Ideal S128x768 .f32) (d : Fin 384) (p : Fin 128) :
    transpose S384x128 [1, 0] (extractStridedSlice S128x384 ![0, 0] W slices_S128x768_S128x384_0_0) transposes_S128x384_S384x128_1_0 (ix2 d p)
      = W (PairUpdate.wLo p d) := by
  refine (transpose_ix2_apply _ _ d p).trans ?_
  exact extractStridedSlice_apply ![0, 0] W _ (ix2 p d) (PairUpdate.wLo p d) (fun a => match a with
    | ⟨0, _⟩ => by show p.val = 0 + p.val; omega
    | ⟨1, _⟩ => by show d.val = 0 + d.val; omega)

/-- Entry `(d, p)` of the transposed second half of the weight is entry `(p, 384 + d)` of the weight. -/
theorem hiHalfT_apply (W : FVec Ideal S128x768 .f32) (d : Fin 384) (p : Fin 128) :
    transpose S384x128 [1, 0] (extractStridedSlice S128x384 ![0, 384] W slices_S128x768_S128x384_0_384) transposes_S128x384_S384x128_1_0 (ix2 d p)
      = W (PairUpdate.wHi p d) := by
  refine (transpose_ix2_apply _ _ d p).trans ?_
  exact extractStridedSlice_apply ![0, 384] W _ (ix2 p d) (PairUpdate.wHi p d) (fun a => match a with
    | ⟨0, _⟩ => by show p.val = 0 + p.val; omega
    | ⟨1, _⟩ => by show 384 + d.val = 384 + d.val; omega)

/-- The bias repeated over the rows reads the bias at the channel. -/
theorem biasRows_apply (b : FVec Ideal S128 .f32) (i : Fin 768) (p : Fin 128) :
    broadcastInDim S768x128 ![0, 1] bcast_S1x128_S768x128_0_1 (broadcastInDim S1x128 ![1] bcast_S128_S1x128_1 b) (ix2 i p) = b (ix1 p) := by
  refine (broadcastInDim_apply _ bcast_S1x128_S768x128_0_1 _ (ix2 i p) (ix2 (0 : Fin 1) p) (fun a => match a with
    | ⟨0, _⟩ => by show (0 : ℕ) = if (1 : ℕ) = 1 then 0 else i.val; rw [if_pos rfl]
    | ⟨1, _⟩ => by show p.val = if (128 : ℕ) = 1 then 0 else p.val; rw [if_neg (by decide)])).trans ?_
  exact broadcastInDim_apply _ bcast_S128_S1x128_1 b (ix2 (0 : Fin 1) p) (ix1 p) (fun a => match a with
    | ⟨0, _⟩ => by show p.val = if (128 : ℕ) = 1 then 0 else p.val; rw [if_neg (by decide)])

/-- The row term at `(i, p)`: the row projection plus the bias. -/
theorem rowTerm_apply (s : FVec Ideal S768x384 .f32) (W : FVec Ideal S128x768 .f32) (b : FVec Ideal S128 .f32) (i : Fin 768) (p : Fin 128) :
    rowTerm s W b (ix2 i p) = PairUpdate.rowProj s W i p + b (ix1 p) := by
  unfold rowTerm PairUpdate.rowProj
  refine (addf_apply _ _ _).trans (congrArg₂ (· + ·) ?_ (biasRows_apply b i p))
  refine (dot_apply _ _ i p).trans (Finset.sum_congr rfl fun d _ => ?_)
  rw [loHalfT_apply]

/-- The column term at `(i, p)`: the column projection. -/
theorem colTerm_apply (s : FVec Ideal S768x384 .f32) (W : FVec Ideal S128x768 .f32) (i : Fin 768) (p : Fin 128) :
    colTerm s W (ix2 i p) = PairUpdate.colProj s W i p := by
  unfold colTerm PairUpdate.colProj
  refine (dot_apply _ _ i p).trans (Finset.sum_congr rfl fun d _ => ?_)
  rw [hiHalfT_apply]

end Cert.KernelIdeal.Bridge

end
-- ==== Proof.KernelEntry.lean ====
/-
  What the kernel finds in its two prepared buffers when it is launched.

  Ten host operations run before the launch. Read back in order, the buffer the first window stages holds the row term
  of the representation, the weight and the bias, and the buffer the second window stages holds the column term of the
  representation and the weight (KernelHost.lean says what the two terms are at an index); the pair tensor's own buffer
  is untouched, and the result's buffer starts as a copy of it.
-/
import proofs.«126398_j17609365914012_2_alg».proof.Proof.Gen.KernelIdeal.Frame.Runs
import proofs.«126398_j17609365914012_2_alg».proof.Proof.KernelHost
import Idealize.ShloMosaic.Lib.StableHlo.Run

noncomputable section

namespace Cert.KernelIdeal.Bridge

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- At launch the first window's array is the row term of the arguments. -/
theorem entry_rowTerm (c : Dev nD) :
    (V m c main_v6 : S768x128.Idx → EReal)
      = rowTerm (m ((c : Thread nD τ).loc main_arg0)) (m ((c : Thread nD τ).loc main_arg2)) (m ((c : Thread nD τ).loc main_arg3)) := by
  dsimp only [Gen.V, Gen.hostOps0]; after_results; rfl

/-- At launch the second window's array is the column term of the arguments. -/
theorem entry_colTerm (c : Dev nD) :
    (V m c main_v8 : S768x128.Idx → EReal)
      = colTerm (m ((c : Thread nD τ).loc main_arg0)) (m ((c : Thread nD τ).loc main_arg2)) := by
  dsimp only [Gen.V, Gen.hostOps0]; after_results; rfl

end Cert.KernelIdeal.Bridge

end
-- ==== Proof.KernelValue.lean ====
/-
  The kernel's result array is the pair update of its four arguments.

  After the run the result array holds, at `(x, y, p)`, the pair tensor there plus the row term at `(x, p)` plus the
  column term at `(y, p)` (KernelBlocks.lean), the two terms being what the host operations prepared from the
  arguments (KernelEntry.lean): the row projection plus the bias, and the column projection (KernelHost.lean). So the
  entry is `(z + (rowProj + b)) + colProj`, which is the specification's `((z + rowProj) + colProj) + b` by
  commutativity and associativity of addition on the extended reals.
-/
import proofs.«126398_j17609365914012_2_alg».proof.Proof.KernelBlocks
import proofs.«126398_j17609365914012_2_alg».proof.Proof.KernelEntry

noncomputable section

namespace Cert.KernelIdeal.Bridge

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- Spreading the row term and the column term over the pair tensor gives the pair update. -/
theorem spread_terms (s : FVec Ideal S768x384 .f32) (z : FVec Ideal S768x768x128 .f32) (W : FVec Ideal S128x768 .f32)
    (b : FVec Ideal S128 .f32) :
    spread (rowTerm s W b) (colTerm s W) z = PairUpdate.pairUpdate s z W b := by
  funext j
  obtain ⟨x, y, p, rfl⟩ : ∃ (x y : Fin 768) (p : Fin 128), j = ix3 x y p := ⟨j 0, j 1, j 2, eq_ix3 j⟩
  rw [spread_apply, PairUpdate.pairUpdate_apply, rowTerm_apply, colTerm_apply]
  exact PairUpdate.entry_bias_first s z W b x y p

/-- After the run the result array is the pair update of the argument arrays. -/
theorem final_eq (c : Dev nD) :
    (dats m 0 c).arrAt 3 cfg0.N
      = PairUpdate.pairUpdate (m ((c : Thread nD τ).loc main_arg0)) (m ((c : Thread nD τ).loc main_arg1)) (m ((c : Thread nD τ).loc main_arg2)) (m ((c : Thread nD τ).loc main_arg3)) := by
  refine (final_spread m c).trans ?_
  rw [entry_rowTerm m c, entry_colTerm m c, V_main_arg1 m c]
  exact spread_terms _ _ _ _

/-- Every weakly fair execution of the kernel's program terminates with the result array at the pair update of the
    arguments, and the arguments unchanged. -/
theorem run : θ_run defs (onTc (τ := τ) (main (F := Ideal))) ⟨m, fun _ => 0, ρ⟩ fun r => ∀ c : Dev nD,
      r.2.mem ((c : Thread nD τ).loc main_v9)
        = PairUpdate.pairUpdate (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_eq m c), (h c).2⟩) (Value.run_blocks m ρ)

end Cert.KernelIdeal.Bridge

end
-- ==== Proof.RefSide.lean ====
/-
  The reference computes the pair update in the order the specification writes it.

  Its thirteen host operations, read one at a time at an index: the two halves of the weight are column ranges
  [0, 384) and [384, 768) of every row; each projection is a contraction over the 384 features, the representation's
  row on the left and the weight's row on the right; the row projection is repeated along the second position of a pair,
  the column projection along the first, the bias along both; and the three additions go pair tensor + row projection,
  then + column projection, then + bias. At pair `(a, b')` and channel `p` that is `PairUpdate.entry` word for word,
  once each composed index is written by its coordinates.
-/
import proofs.«126398_j17609365914012_2_alg».proof.Proof.Gen.ReferenceIdeal.Read
import proofs.«126398_j17609365914012_2_alg».proof.Proof.PairSpec

noncomputable section

namespace Cert.ReferenceIdeal.RefValue

open Cert.ReferenceIdeal Cert.ReferenceIdeal.Read Idealize.ShloMosaic Idealize.ShloMosaic.ValueIdx
open scoped BigOperators

/-- The reference's last stage is the specification's function of the four argument arrays. -/
theorem ref_eq (x0 : FVec Ideal S768x384 .f32) (x1 : FVec Ideal S768x768x128 .f32) (x2 : FVec Ideal S128x768 .f32)
    (x3 : FVec Ideal S128 .f32) :
    val_main_v12 (F := Ideal) x0 x1 x2 x3 = PairUpdate.pairUpdate x0 x1 x2 x3 := by
  funext j
  obtain ⟨a, b', p, rfl⟩ : ∃ (a b' : Fin 768) (p : Fin 128), j = ix3 a b' p := ⟨j 0, j 1, j 2, eq_ix3 j⟩
  rw [PairUpdate.pairUpdate_apply, val_main_v12_apply, val_main_v9_apply, val_main_v6_apply, val_main_v5_apply,
    val_main_v4_apply, val_main_v2_apply, val_main_v8_apply, val_main_v7_apply, val_main_v3_apply, val_main_v11_apply,
    val_main_v10_apply]
  unfold PairUpdate.entry PairUpdate.rowProj PairUpdate.colProj
  refine congrArg₂ (· + ·) (congrArg₂ (· + ·) (congrArg₂ (· + ·) rfl ?_) ?_) ?_
  · refine Finset.sum_congr rfl fun d _ => ?_
    rw [val_main_v0_apply]
    refine congrArg₂ (· * ·) (congrArg x0 ?_) (congrArg x2 ?_)
    · exact funext fun ax => Fin.ext (by match ax with | ⟨0, _⟩ => rfl | ⟨1, _⟩ => rfl)
    · exact funext fun ax => Fin.ext (by match ax with | ⟨0, _⟩ => rfl | ⟨1, _⟩ => rfl)
  · refine Finset.sum_congr rfl fun d _ => ?_
    rw [val_main_v1_apply]
    refine congrArg₂ (· * ·) (congrArg x0 ?_) (congrArg x2 ?_)
    · exact funext fun ax => Fin.ext (by match ax with | ⟨0, _⟩ => rfl | ⟨1, _⟩ => rfl)
    · exact funext fun ax => Fin.ext (by match ax with | ⟨0, _⟩ => rfl | ⟨1, _⟩ => rfl)
  · exact congrArg x3 (funext fun ax => Fin.ext (by match ax with | ⟨0, _⟩ => rfl))

end Cert.ReferenceIdeal.RefValue

end
-- ==== Proof.lean ====
/-
  The pair update: `out[a, b', p] = z[a, b', p] + Σ_d s[a, d]·W[p, d] + Σ_d s[b', d]·W[p, 384 + d] + b[p]`.

  The kernel's program prepares, with host operations, the row term `s · W_loᵀ + b` and the column term `s · W_hiᵀ`
  (768 × 128 each), and its tiled kernel adds them to the pair tensor block by block over a 4 × 6 grid: the row term
  along the first position of a pair, the column term along the second. The reference adds the two projections and then
  the bias to the pair tensor directly. Read at the extended reals the two results are the same function of the four
  arguments, entry by entry; the only difference is where the bias enters the sum, and addition of extended reals is
  commutative and associative, so the equality holds at every input and the finiteness precondition is not used.

  The three frames are the programs' runs with the results dropped; nothing was rewritten in idealizing the kernel, so
  the idealization claim is empty; and the value claim sets the kernel's run (Proof/KernelValue.lean) beside the
  reference's (Proof/RefSide.lean), both ending at `PairUpdate.pairUpdate` (Proof/PairSpec.lean) of the arguments.
-/
import proofs.«126398_j17609365914012_2_alg».proof.Defs
import proofs.«126398_j17609365914012_2_alg».proof.Proof.Gen.Kernel
import proofs.«126398_j17609365914012_2_alg».proof.Proof.Gen.Kernel.Skeleton
import proofs.«126398_j17609365914012_2_alg».proof.Proof.Gen.Kernel.Launch
import proofs.«126398_j17609365914012_2_alg».proof.Proof.Gen.Kernel.Points
import proofs.«126398_j17609365914012_2_alg».proof.Proof.Gen.Kernel.Frame
import proofs.«126398_j17609365914012_2_alg».proof.Proof.Gen.KernelIdeal
import proofs.«126398_j17609365914012_2_alg».proof.Proof.Gen.KernelIdeal.Skeleton
import proofs.«126398_j17609365914012_2_alg».proof.Proof.Gen.KernelIdeal.Launch
import proofs.«126398_j17609365914012_2_alg».proof.Proof.Gen.KernelIdeal.Points
import proofs.«126398_j17609365914012_2_alg».proof.Proof.Gen.KernelIdeal.Frame
import proofs.«126398_j17609365914012_2_alg».proof.Proof.Gen.ReferenceIdeal
import proofs.«126398_j17609365914012_2_alg».proof.Proof.Gen.KernelIdeal.Value
import proofs.«126398_j17609365914012_2_alg».proof.Proof.Gen.ReferenceIdeal.Run
import proofs.«126398_j17609365914012_2_alg».proof.Proof.Gen.ReferenceIdeal.Read
import proofs.«126398_j17609365914012_2_alg».proof.Proof.Gen.Pre_finite_inputs
import proofs.«126398_j17609365914012_2_alg».proof.Proof.KernelValue
import proofs.«126398_j17609365914012_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel's program runs, and leaves its arguments as they were. -/
theorem frame_kernel : Cert.frame_Kernel := fun m ρ _ => Cert.Kernel.Gen.frame m ρ

/-- So does the kernel's program read at the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the four arguments, end with the pair update of those arguments. -/
theorem algebraic : Cert.algebraic_KernelIdeal_ReferenceIdeal := by
  intro m ρ m' ρ' _ hagree
  refine ⟨fun c => PairUpdate.pairUpdate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v12_eq _ _ _ _).trans (Cert.ReferenceIdeal.RefValue.ref_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
